-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  main_v3
-- ==== Kernel.lean ====
abbrev S8192x4096 : Shape := ⟨2, ![8192, 4096]⟩
abbrev S8192x64x64 : Shape := ⟨3, ![8192, 64, 64]⟩
abbrev S128x64x64 : Shape := ⟨3, ![128, 64, 64]⟩

abbrev nBuf : Space → Nat
  | .hbm => 4
  | .vmem => 4
  | .smem => 0
  | _ => 0

abbrev bufTy : (tb : Table) → Fin (tcTables nBuf tb) → BufTy
  | .hbm, ⟨0, _⟩ => ⟨S8192x4096, .f32⟩
  | .hbm, ⟨1, _⟩ => ⟨S8192x64x64, .f32⟩
  | .hbm, ⟨2, _⟩ => ⟨S8192x64x64, .f32⟩
  | .hbm, ⟨3, _⟩ => ⟨S8192x4096, .f32⟩
  | .local _ .vmem, ⟨0, _⟩ => ⟨S128x64x64, .f32⟩
  | .local _ .vmem, ⟨1, _⟩ => ⟨S128x64x64, .f32⟩
  | .local _ .vmem, ⟨2, _⟩ => ⟨S128x64x64, .f32⟩
  | .local _ .vmem, ⟨3, _⟩ => ⟨S128x64x64, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S8192x4096_S8192x64x64 : S8192x4096.ShapeCasts S8192x64x64
  shapeCasts_S8192x64x64_S8192x4096 : S8192x64x64.ShapeCasts S8192x4096
  inb_S128x64x64_S128x64x64_0_0_0 : ∀ a, (![0, 0, 0] : Fin 3 → Nat) a + S128x64x64.size a ≤ S128x64x64.size a
  h_S128x64x64 : 0 < S128x64x64.numel
  shapeCasts_S128x64x64_S128x64x64 : S128x64x64.ShapeCasts S128x64x64
  dot_S128x64x64_S128x64x64_S128x64x64_2_1_1_2_0_0_wf : DotDims.WF S128x64x64 S128x64x64 S128x64x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64x64.size a ≤ S8192x64x64.size a
  hwx0_0 : ∀ i : grid0.Coords, EltTy.bits .f32 = 32 ∨ (Rect.block (s := S8192x64x64) S128x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64x64.size a ≤ S8192x64x64.size a
  hwx0_1 : ∀ i : grid0.Coords, EltTy.bits .f32 = 32 ∨ (Rect.block (s := S8192x64x64) S128x64x64.size (cc0_transform_1 i) (hinb0_1 i)).WholeWords (EltTy.packing .f32)

variable [Facts₀]

def dot_S128x64x64_S128x64x64_S128x64x64_2_1_1_2_0_0 : DotDims S128x64x64 S128x64x64 S128x64x64 where
  lhsContracting := [2]
  rhsContracting := [1]
  lhsNonContracting := [1]
  rhsNonContracting := [2]
  lhsBatch := [0]
  rhsBatch := [0]
  wf := dot_S128x64x64_S128x64x64_S128x64x64_2_1_1_2_0_0_wf

abbrev win0_0 : Pipeline.Window sig grid0 :=
  Pipeline.Window.ofSpec (Memref.whole main_call0_v0) S128x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S128x64x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S8192x64x64 : Shape := ⟨3, ![8192, 64, 64]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x64x64, .f32⟩
  | .hbm, ⟨2, _⟩ => ⟨S8192x64x64, .f32⟩
  | .hbm, ⟨3, _⟩ => ⟨S_, .f32⟩
  | .hbm, ⟨4, _⟩ => ⟨S8192x64x64, .f32⟩
  | .hbm, ⟨5, _⟩ => ⟨S8192x64x64, .f32⟩
  | .hbm, ⟨6, _⟩ => ⟨S8192x64x64, .f32⟩
  | .hbm, ⟨7, _⟩ => ⟨S8192x64x64, .f32⟩
  | .hbm, ⟨8, _⟩ => ⟨S_, .f32⟩
  | .hbm, ⟨9, _⟩ => ⟨S8192x64x64, .f32⟩
  | .hbm, ⟨10, _⟩ => ⟨S8192x64x64, .f32⟩
  | .hbm, ⟨11, _⟩ => ⟨S8192x64x64, .f32⟩
  | .hbm, ⟨12, _⟩ => ⟨S8192x64x64, .f32⟩
  | .hbm, ⟨13, _⟩ => ⟨S_, .f32⟩
  | .hbm, ⟨14, _⟩ => ⟨S8192x64x64, .f32⟩
  | .hbm, ⟨15, _⟩ => ⟨S8192x64x64, .f32⟩
  | .hbm, ⟨16, _⟩ => ⟨S8192x64x64, .f32⟩
  | .hbm, ⟨17, _⟩ => ⟨S8192x64x64, .f32⟩
  | .hbm, ⟨18, _⟩ => ⟨S_, .f32⟩
  | .hbm, ⟨19, _⟩ => ⟨S8192x64x64, .f32⟩
  | .hbm, ⟨20, _⟩ => ⟨S8192x64x64, .f32⟩
  | .hbm, ⟨21, _⟩ => ⟨S8192x64x64, .f32⟩
  | .hbm, ⟨22, _⟩ => ⟨S8192x64x64, .f32⟩
  | .hbm, ⟨23, _⟩ => ⟨S_, .f32⟩
  | .hbm, ⟨24, _⟩ => ⟨S8192x64x64, .f32⟩
  | .hbm, ⟨25, _⟩ => ⟨S8192x64x64, .f32⟩
  | .hbm, ⟨26, _⟩ => ⟨S8192x64x64, .f32⟩
  | .hbm, ⟨27, _⟩ => ⟨S8192x64x64, .f32⟩
  | .hbm, ⟨28, _⟩ => ⟨S_, .f32⟩
  | .hbm, ⟨29, _⟩ => ⟨S8192x64x64, .f32⟩
  | .hbm, ⟨30, _⟩ => ⟨S8192x64x64, .f32⟩
  | .hbm, ⟨31, _⟩ => ⟨S8192x64x64, .f32⟩
  | .hbm, ⟨32, _⟩ => ⟨S_, .f32⟩
  | .hbm, ⟨33, _⟩ => ⟨S8192x64x64, .f32⟩
  | .hbm, ⟨34, _⟩ => ⟨S8192x64x64, .f32⟩
  | .hbm, ⟨35, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_1 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_3 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_4 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_5 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]

class Facts₀ : Prop where
  shapeCasts_S8192x4096_S8192x64x64 : S8192x4096.ShapeCasts S8192x64x64
  bcast_S_S8192x64x64 : S_.BroadcastsInDim S8192x64x64 (![] : Fin 0 → Fin S8192x64x64.rank)
  shapeCasts_S8192x64x64_S8192x4096 : S8192x64x64.ShapeCasts S8192x4096
  dot_S8192x64x64_S8192x64x64_S8192x64x64_2_1_1_2_0_0_wf : DotDims.WF S8192x64x64 S8192x64x64 S8192x64x64 [2] [1] [1] [2] [0] [0]

variable [Facts₀]

def dot_S8192x64x64_S8192x64x64_S8192x64x64_2_1_1_2_0_0 : DotDims S8192x64x64 S8192x64x64 S8192x64x64 where
  lhsContracting := [2]
  rhsContracting := [1]
  lhsNonContracting := [1]
  rhsNonContracting := [2]
  lhsBatch := [0]
  rhsBatch := [0]
  wf := dot_S8192x64x64_S8192x64x64_S8192x64x64_2_1_1_2_0_0_wf

class Facts : Prop extends Facts₀ where

variable [Facts]
-- ==== Proof.Series.lean ====
/-
  A truncated, rescaled power series of a 64 × 64 matrix over the extended reals, and how it is read off a stack of
  matrices.

  For a matrix X put P₁ = X and P₍ₙ₊₁₎ = (Pₙ · X) / dₙ for six divisors d₁ … d₆, every quotient taken entry by entry;
  the series is (X + P₂ + P₃ + P₄ + P₅ + P₆ + P₇) / d₇, the sum grouped from the left. The product of two matrices is
  the usual one, entry (i, j) the sum over k of A(i, k) · B(k, j). Nothing here is simplified: two programs that carry
  out exactly these steps, in this order, on every matrix of a stack compute this function of that matrix, at the
  infinities too, and no law of arithmetic is needed to compare them.

  A stack of B matrices is an array of shape [B, 64, 64]; its b-th matrix is its slice at first coordinate b. The
  entrywise operations of a stack (sum, quotient by one broadcast number) act on every slice separately, which is all
  the lemmas at the end say. Both programs take the stack as a flat array of 8192 rows of 4096 numbers and reshape it
  before and after. This file depends on no program.
-/
import Idealize.ShloMosaic.PureOps.Ideal
import Idealize.ShloMosaic.Lib.ValueIdx
import Idealize.ShloMosaic.Lib.KernelVsHost

noncomputable section

namespace Cert.MatSeries

open Idealize.ShloMosaic Idealize.ShloMosaic.ValueIdx

/-- A 64 × 64 matrix of extended reals. -/
abbrev Mat : Type := Fin 64 → Fin 64 → EReal

/-- The matrix product: entry (i, j) is the sum over k of A(i, k) · B(k, j). -/
def mm (A B : Mat) : Mat := fun i j => ∑ k : Fin 64, A i k * B k j

/-- Every entry divided by one number (the extended reals' quotient, as the ideal values define it). -/
def sdiv (A : Mat) (d : EReal) : Mat := fun i j => Ideal.div (A i j) d

/-- The entrywise sum. -/
def madd (A B : Mat) : Mat := fun i j => A i j + B i j

/-- One step of the recursion: the next term is the previous one times X, divided by d. -/
def next (X P : Mat) (d : EReal) : Mat := sdiv (mm P X) d

/-- The six divisors of the recursion and the final one, as the exact values of their binary words. -/
def d1 : EReal := Ideal.ofBits .f32 0x41000000#32
def d2 : EReal := Ideal.ofBits .f32 0x41001FFC#32
def d3 : EReal := Ideal.ofBits .f32 0x410040CF#32
def d4 : EReal := Ideal.ofBits .f32 0x41008C00#32
def d5 : EReal := Ideal.ofBits .f32 0x4100DEE7#32
def d6 : EReal := Ideal.ofBits .f32 0x41016EBD#32
def d7 : EReal := Ideal.ofBits .f32 0x402953FD#32

/-- The terms P₂ … P₇ of the recursion. -/
def P2 (X : Mat) : Mat := next X X d1
def P3 (X : Mat) : Mat := next X (P2 X) d2
def P4 (X : Mat) : Mat := next X (P3 X) d3
def P5 (X : Mat) : Mat := next X (P4 X) d4
def P6 (X : Mat) : Mat := next X (P5 X) d5
def P7 (X : Mat) : Mat := next X (P6 X) d6

/-- The series: (X + P₂ + … + P₇) / d₇, the sum grouped from the left. -/
def series (X : Mat) : Mat :=
  sdiv (madd (madd (madd (madd (madd (madd X (P2 X)) (P3 X)) (P4 X)) (P5 X)) (P6 X)) (P7 X)) d7

/-! ## A stack of matrices, slice by slice -/

/-- The b-th matrix of a stack. -/
def sl {B : Nat} (Y : (⟨3, ![B, 64, 64]⟩ : Shape).Idx → EReal) (b : Fin B) : Mat := fun i j => Y (ix3 b i j)

/-- The function of a whole stack whose every slice is the series of that slice of the argument. -/
def seriesStack {B : Nat} (Y : (⟨3, ![B, 64, 64]⟩ : Shape).Idx → EReal) : (⟨3, ![B, 64, 64]⟩ : Shape).Idx → EReal :=
  fun i => series (sl Y (i 0)) (i 1) (i 2)

theorem sl_seriesStack {B : Nat} (Y : (⟨3, ![B, 64, 64]⟩ : Shape).Idx → EReal) (b : Fin B) :
    sl (seriesStack Y) b = series (sl Y b) := rfl

/-- The same function of a flat array of 8192 rows of 4096 numbers, each row a matrix in row-major order: reshape to
    the stack, the series matrix by matrix, reshape back. -/
def seriesFlat (h : (⟨2, ![8192, 4096]⟩ : Shape).ShapeCasts ⟨3, ![8192, 64, 64]⟩)
    (h' : (⟨3, ![8192, 64, 64]⟩ : Shape).ShapeCasts ⟨2, ![8192, 4096]⟩)
    (x : (⟨2, ![8192, 4096]⟩ : Shape).Idx → EReal) : (⟨2, ![8192, 4096]⟩ : Shape).Idx → EReal :=
  shapeCast ⟨2, ![8192, 4096]⟩ (seriesStack (shapeCast ⟨3, ![8192, 64, 64]⟩ x h)) h'

/-- Two stacks with the same slices are equal. -/
theorem ext_sl {B : Nat} (Y Z : (⟨3, ![B, 64, 64]⟩ : Shape).Idx → EReal) (h : ∀ b, sl Y b = sl Z b) : Y = Z := by
  funext i
  rw [eq_ix3 i]
  exact congrFun (congrFun (h (i 0)) (i 1)) (i 2)

/-- The entrywise sum of two stacks, slice by slice. -/
theorem sl_addf {B : Nat} (Y Z : FVec Ideal ⟨3, ![B, 64, 64]⟩ .f32) (b : Fin B) :
    sl (addf Y Z) b = madd (sl Y b) (sl Z b) := rfl

/-- A stack divided entrywise by a splat number (a kernel's spelling), slice by slice. -/
theorem sl_divf_splat {B : Nat} (Y : FVec Ideal ⟨3, ![B, 64, 64]⟩ .f32) (w : BitVec 32) (b : Fin B) :
    sl (divf Y (broadcast ⟨3, ![B, 64, 64]⟩ (Scalar.ofBits (F := Ideal) .f32 w))) b = sdiv (sl Y b) (Ideal.ofBits .f32 w) := rfl

/-- The same quotient in the host's spelling (the host's divide; the divisor, a scalar constant broadcast over the stack,
    is the splat of that constant). -/
theorem sl_hostDivf_splat {B : Nat} (Y : FVec Ideal ⟨3, ![B, 64, 64]⟩ .f32) (w : BitVec 32) (b : Fin B) :
    sl (Host.divf Y (broadcast ⟨3, ![B, 64, 64]⟩ (Scalar.ofBits (F := Ideal) .f32 w))) b = sdiv (sl Y b) (Ideal.ofBits .f32 w) := rfl

/-- A cast of a stack to its own shape changes nothing. -/
theorem sl_shapeCast_self {B : Nat} (Y : FVec Ideal ⟨3, ![B, 64, 64]⟩ .f32)
    (h : (⟨3, ![B, 64, 64]⟩ : Shape).ShapeCasts ⟨3, ![B, 64, 64]⟩) (b : Fin B) :
    sl (shapeCast ⟨3, ![B, 64, 64]⟩ Y h) b = sl Y b := by
  rw [shapeCast_self]

end Cert.MatSeries

end
-- ==== Proof.KernelPay.lean ====
/-
  What one grid point of the kernel stores, matrix by matrix.

  The kernel's body loads a block of 128 matrices, forms six batched products into a zero accumulator, each followed by
  an entrywise quotient by a splat number and an entrywise sum, and stores one last quotient. A batched product with
  batch axis 0, contracting the left operand's last axis with the right operand's middle axis, is at entry (b, i, j) the
  sum over k of L(b, i, k) · R(b, k, j): the b-th slice of the product is the matrix product of the b-th slices. The
  entrywise steps act on slices separately too. So the b-th slice of the stored block is the series of the b-th slice
  of the loaded block.
-/
import proofs.«124483_j52810917872258_2_alg».proof.Proof.Gen.KernelIdeal.Skeleton
import proofs.«124483_j52810917872258_2_alg».proof.Proof.Series
import Idealize.ShloMosaic.Lib.ValueIdx
import Idealize.ShloMosaic.PureOps.Ideal.Laws

noncomputable section

namespace Cert.KernelIdeal.Hand

open Cert.KernelIdeal Cert.KernelIdeal.Gen Cert.MatSeries Idealize.ShloMosaic Idealize.ShloMosaic.ValueIdx

/-! ## The operand indices of the batched product

At output index i and contraction position q, the left operand is read at (i₀, i₁, q) and the right one at
(i₀, q, i₂): the batch coordinate is shared, the left operand keeps the row, the right one the column. -/

theorem lhs_batch (i : S128x64x64.Idx) (q : dot_S128x64x64_S128x64x64_S128x64x64_2_1_1_2_0_0.contr.Idx) :
    (dot_S128x64x64_S128x64x64_S128x64x64_2_1_1_2_0_0.lhsIdx i q 0).val = (i 0).val := by
  unfold DotDims.lhsIdx
  rw [dif_pos (show (0 : Fin S128x64x64.rank) ∈ dot_S128x64x64_S128x64x64_S128x64x64_2_1_1_2_0_0.lhsBatch by decide)]
  rfl
theorem lhs_row (i : S128x64x64.Idx) (q : dot_S128x64x64_S128x64x64_S128x64x64_2_1_1_2_0_0.contr.Idx) :
    (dot_S128x64x64_S128x64x64_S128x64x64_2_1_1_2_0_0.lhsIdx i q 1).val = (i 1).val := by
  unfold DotDims.lhsIdx
  rw [dif_neg (show ¬(1 : Fin S128x64x64.rank) ∈ dot_S128x64x64_S128x64x64_S128x64x64_2_1_1_2_0_0.lhsBatch by decide), dif_pos (show (1 : Fin S128x64x64.rank) ∈ dot_S128x64x64_S128x64x64_S128x64x64_2_1_1_2_0_0.lhsNonContracting by decide)]
  rfl
theorem lhs_contr (i : S128x64x64.Idx) (q : dot_S128x64x64_S128x64x64_S128x64x64_2_1_1_2_0_0.contr.Idx) :
    (dot_S128x64x64_S128x64x64_S128x64x64_2_1_1_2_0_0.lhsIdx i q 2).val = (q ⟨0, by decide⟩).val :=
  dot_S128x64x64_S128x64x64_S128x64x64_2_1_1_2_0_0.lhsIdx_val_of_single rfl i q
theorem rhs_batch (i : S128x64x64.Idx) (q : dot_S128x64x64_S128x64x64_S128x64x64_2_1_1_2_0_0.contr.Idx) :
    (dot_S128x64x64_S128x64x64_S128x64x64_2_1_1_2_0_0.rhsIdx i q 0).val = (i 0).val := by
  unfold DotDims.rhsIdx
  rw [dif_pos (show (0 : Fin S128x64x64.rank) ∈ dot_S128x64x64_S128x64x64_S128x64x64_2_1_1_2_0_0.rhsBatch by decide)]
  rfl
theorem rhs_contr (i : S128x64x64.Idx) (q : dot_S128x64x64_S128x64x64_S128x64x64_2_1_1_2_0_0.contr.Idx) :
    (dot_S128x64x64_S128x64x64_S128x64x64_2_1_1_2_0_0.rhsIdx i q 1).val = (q ⟨0, by decide⟩).val :=
  dot_S128x64x64_S128x64x64_S128x64x64_2_1_1_2_0_0.rhsIdx_val_of_single rfl i q
theorem rhs_col (i : S128x64x64.Idx) (q : dot_S128x64x64_S128x64x64_S128x64x64_2_1_1_2_0_0.contr.Idx) :
    (dot_S128x64x64_S128x64x64_S128x64x64_2_1_1_2_0_0.rhsIdx i q 2).val = (i 2).val := by
  unfold DotDims.rhsIdx
  rw [dif_neg (show ¬(2 : Fin S128x64x64.rank) ∈ dot_S128x64x64_S128x64x64_S128x64x64_2_1_1_2_0_0.rhsBatch by decide), dif_pos (show (2 : Fin S128x64x64.rank) ∈ dot_S128x64x64_S128x64x64_S128x64x64_2_1_1_2_0_0.rhsNonContracting by decide)]
  rfl

/-- The batched product into the zero accumulator, slice by slice: the b-th slice is the matrix product of the operands'
    b-th slices (the contraction's sum re-indexed by its one coordinate). -/
theorem sl_matmul (prec : Option ContractPrecision) (Y Z : FVec Ideal S128x64x64 .f32) (b : Fin 128) :
    sl (matmul dot_S128x64x64_S128x64x64_S128x64x64_2_1_1_2_0_0 prec Y Z (constant S128x64x64 .f32 0x00000000#32)) b = mm (sl Y b) (sl Z b) := by
  funext i j
  show FloatOps.matmul dot_S128x64x64_S128x64x64_S128x64x64_2_1_1_2_0_0 prec Y Z (constant S128x64x64 .f32 0x00000000#32) (ix3 b i j)
    = ∑ k : Fin 64, Y (ix3 b i k) * Z (ix3 b k j)
  rw [Ideal.matmul_constant_zero_apply, ← Equiv.sum_comp (contrEquiv1 dot_S128x64x64_S128x64x64_S128x64x64_2_1_1_2_0_0 64 rfl rfl).symm]
  refine Finset.sum_congr rfl fun k _ => ?_
  have hk := contrEquiv1_symm_val dot_S128x64x64_S128x64x64_S128x64x64_2_1_1_2_0_0 64 rfl rfl k
  have el : dot_S128x64x64_S128x64x64_S128x64x64_2_1_1_2_0_0.lhsIdx (ix3 b i j) ((contrEquiv1 dot_S128x64x64_S128x64x64_S128x64x64_2_1_1_2_0_0 64 rfl rfl).symm k) = ix3 b i k := funext fun a => Fin.ext (by
    match a with
    | ⟨0, _⟩ => exact lhs_batch _ _
    | ⟨1, _⟩ => exact lhs_row _ _
    | ⟨2, _⟩ => exact (lhs_contr _ _).trans hk)
  have er : dot_S128x64x64_S128x64x64_S128x64x64_2_1_1_2_0_0.rhsIdx (ix3 b i j) ((contrEquiv1 dot_S128x64x64_S128x64x64_S128x64x64_2_1_1_2_0_0 64 rfl rfl).symm k) = ix3 b k j := funext fun a => Fin.ext (by
    match a with
    | ⟨0, _⟩ => exact rhs_batch _ _
    | ⟨1, _⟩ => exact (rhs_contr _ _).trans hk
    | ⟨2, _⟩ => exact rhs_col _ _)
  rw [el, er]

/-- The stored block, slice by slice: the series of the loaded block's slice. -/
theorem pay_slice (x0 : Vec Ideal S128x64x64 .f32) (b : Fin 128) :
    sl (k0_pay1 (F := Ideal) x0) b = series (sl x0 b) := by
  unfold k0_pay1
  simp only [sl_divf_splat, sl_addf, sl_matmul, sl_shapeCast_self]
  rfl

end Cert.KernelIdeal.Hand

end
-- ==== Proof.KernelValue.lean ====
/-
  From the blocks the grid points write back to the kernel's result array, and through the two reshapes around the call.

  The call works on a stack of 8192 matrices, 128 to a block: point t loads matrices 128·t … 128·t + 127 and writes the
  same range of the result back. By the slice lemma every matrix of the stored block is the series of the loaded matrix
  with the same number, so what point t writes back is block t of ONE function of the whole stack: the stack function of
  the series. The 64 blocks tile the array, so after the run the result stack is that function of the input stack. The
  host reshapes the argument [8192, 4096] into the stack before the call and the result stack back afterwards.
-/
import proofs.«124483_j52810917872258_2_alg».proof.Proof.Gen.KernelIdeal.Frame
import proofs.«124483_j52810917872258_2_alg».proof.Proof.KernelPay
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.MatSeries Idealize.ShloMosaic.ValueIdx

variable (m : (ℓ : Loc nD τ sig) → Buf (Elt Ideal) ℓ) (ρ : Dev nD → PrngReg)

theorem hz : (![0, 0, 0] : Fin 3 → Nat) = fun _ => 0 := funext fun a => by fin_cases a <;> rfl

/-- One entry of a stored block: if matrix j₀ of the loaded block is matrix e₀ of a stack A, the block's entry at
    (j₀, j₁, j₂) is the stack function of A at (e₀, j₁, j₂). -/
theorem pay_at (x0 : Vec Ideal S128x64x64 .f32) (A : S8192x64x64.Idx → EReal) (j : S128x64x64.Idx) (e : S8192x64x64.Idx)
    (h0 : ∀ r q : Fin 64, x0 (ix3 (j 0) r q) = A (ix3 (e 0) r q)) (h1 : e 1 = j 1) (h2 : e 2 = j 2) :
    k0_pay1 (F := Ideal) x0 j = seriesStack A e := by
  have hs : sl x0 (j 0) = sl A (e 0) := funext fun r => funext fun q => h0 r q
  show _ = series (sl A (e 0)) (e 1) (e 2)
  rw [← hs, h1, h2]
  exact (congrArg (k0_pay1 (F := Ideal) x0) (eq_ix3 j)).trans (congrFun (congrFun (pay_slice x0 (j 0)) (j 1)) (j 2))

/-- The printed index maps, decided over the 64 grid points: both windows are at block (t, 0, 0) at point t. -/
theorem idx_facts : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- What point t writes back is block t of the stack function of the input stack as the call finds it. -/
theorem flushed_eq (c : Dev nD) (t : Fin cfg0.N) :
    (dats m 0 c).flushed 1 t = ((cfg0.win 1).blk t).view.read (Elt Ideal) (seriesStack (V m c main_call0_v0)) := by
  show (cfg0.win 1).cut (grid0.coords t) ((dats m 0 c).after 1 t) = _
  rw [after0_1]
  unfold out0_1
  rw [View.canon_unit_zero hz]
  simp only [View.ld_unit_zero (S := S128x64x64) hz]
  obtain ⟨a0, a1, a2, b0, b1, b2⟩ := idx_facts t
  funext j
  show k0_pay1 (F := Ideal) (iblk m c 0 t) j = seriesStack (V m c main_call0_v0) (((cfg0.win 1).blk t).view.emb j)
  refine pay_at (iblk m c 0 t) (V m c main_call0_v0) j (((cfg0.win 1).blk t).view.emb j) (fun r q => ?_) ?_ ?_
  · show V m c main_call0_v0 (((cfg0.win 0).blk t).view.emb (ix3 (j 0) r q)) = V m c main_call0_v0 (ix3 ((((cfg0.win 1).blk t).view.emb j) 0) r q)
    refine congrArg (V m c main_call0_v0) (funext fun a => Fin.ext ?_)
    match a with
    | ⟨0, _⟩ => show win0_0.index t (0 : Fin 3) * 128 + 1 * (j 0).val = win0_1.index t (0 : Fin 3) * 128 + 1 * (j 0).val; omega
    | ⟨1, _⟩ => show win0_0.index t (1 : Fin 3) * 64 + 1 * r.val = r.val; omega
    | ⟨2, _⟩ => show win0_0.index t (2 : Fin 3) * 64 + 1 * q.val = q.val; omega
  · apply Fin.ext
    show win0_1.index t (1 : Fin 3) * 64 + 1 * (j 1).val = (j 1).val
    omega
  · apply Fin.ext
    show win0_1.index t (2 : Fin 3) * 64 + 1 * (j 2).val = (j 2).val
    omega

/-- An index of the result stack is in point t's block iff each coordinate is in the block's range on its axis. -/
theorem mem_blk (t : Fin cfg0.N) (i : S8192x64x64.Idx) :
    i ∈ ((cfg0.win 1).blk t).view.set ↔ ∀ a : Fin 3, win0_1.index t a * S128x64x64.size a ≤ (i a).val ∧ (i a).val < win0_1.index t a * S128x64x64.size a + S128x64x64.size a := by
  show i ∈ ((View.whole main_call0_v1).slice (win0_1.rect t)).set ↔ _
  rw [View.set_slice_whole, Rect.mem_set_unit]
  exact Iff.rfl

/-- Every index of the result stack is in the block of the point its matrix number divided by 128 names. -/
theorem cover (i : S8192x64x64.Idx) : ∃ t : Fin cfg0.N, (cfg0.win 1).flush t = true ∧ i ∈ ((cfg0.win 1).blk t).view.set := by
  have h0 : (i 0).val < 8192 := (i 0).isLt
  have h1 : (i 1).val < 64 := (i 1).isLt
  have h2 : (i 2).val < 64 := (i 2).isLt
  have hN : cfg0.N = 64 := N_0
  obtain ⟨t, ht⟩ : ∃ t : Fin cfg0.N, t.val = (i 0).val / 128 := ⟨⟨(i 0).val / 128, by rw [hN]; omega⟩, rfl⟩
  obtain ⟨-, -, -, b0, b1, b2⟩ := idx_facts t
  refine ⟨t, flush0_1 t, ?_⟩
  rw [mem_blk]
  intro a
  match a with
  | ⟨0, _⟩ => show win0_1.index t (0 : Fin 3) * 128 ≤ (i 0).val ∧ (i 0).val < win0_1.index t (0 : Fin 3) * 128 + 128; omega
  | ⟨1, _⟩ => show win0_1.index t (1 : Fin 3) * 64 ≤ (i 1).val ∧ (i 1).val < win0_1.index t (1 : Fin 3) * 64 + 64; omega
  | ⟨2, _⟩ => show win0_1.index t (2 : Fin 3) * 64 ≤ (i 2).val ∧ (i 2).val < win0_1.index t (2 : Fin 3) * 64 + 64; omega

/-- The result stack after the run: the stack function of the input stack. -/
theorem final (c : Dev nD) : (dats m 0 c).arrAt 1 cfg0.N = seriesStack (V m c main_call0_v0) :=
  (dats m 0 c).arrAt_eq_of_cover 1 _ (fun t _ => flushed_eq m c t) cover

/-- The input stack is the argument reshaped (the one host line before the call). -/
theorem V_in (c : Dev nD) : (V m c main_call0_v0 : S8192x64x64.Idx → EReal)
    = shapeCast S8192x64x64 (m ((c : Thread nD τ).loc main_arg0)) shapeCasts_S8192x4096_S8192x64x64 := by
  show StableHlo.after hostOps0 (fun b => m (c, b)) (Proc.devRef .tc main_call0_v0) = _
  after_results
  rfl

/-- The call's result stack, as the lines after the call find it, is the stack function of the input stack. -/
theorem out_stack (c : Dev nD) :
    Pipeline.withArrays (cfgs 0).spec c (V0 m c) (fun w => (dats m 0 c).arrAt w (cfgs 0).N) (Proc.devRef .tc main_call0_v1)
      = seriesStack (V m c main_call0_v0) :=
  (Pipeline.withArrays_arr spec0 launch0.win.arr_inj c _ _ 1).trans (final m c)

/-- The program's result: the one host line after the call reshapes the result stack back. -/
theorem tail_eq (c : Dev nD) : (Pipeline.afterTail₀ cfgs (dats m) 0 (V0 m) [hostOps1] c main_v0 : S8192x4096.Idx → EReal)
    = shapeCast S8192x4096 (seriesStack (V m c main_call0_v0)) shapeCasts_S8192x64x64_S8192x4096 := by
  unfold Pipeline.afterTail₀
  show StableHlo.after hostOps1 _ (Proc.devRef .tc main_v0) = _
  after_results
  generalize hX : Pipeline.withArrays (cfgs 0).spec c (V0 m c) (fun w => (dats m 0 c).arrAt w (cfgs 0).N) (Proc.devRef .tc main_call0_v1) = X
  obtain rfl : X = seriesStack (V m c main_call0_v0) := hX.symm.trans (out_stack m c)
  rfl

/-- The run, read: every weakly fair execution ends with the result array at the series, matrix by matrix, of the
    argument (reshaped to the stack and back), and the argument unchanged. -/
theorem run : θ_run defs (onTc (τ := τ) (main (F := Ideal))) ⟨m, fun _ => 0, ρ⟩ fun r => ∀ c : Dev nD,
      r.2.mem ((c : Thread nD τ).loc main_v0)
          = seriesFlat shapeCasts_S8192x4096_S8192x64x64 shapeCasts_S8192x64x64_S8192x4096 (m ((c : Thread nD τ).loc main_arg0))
      ∧ r.2.mem ((c : Thread nD τ).loc main_arg0) = m ((c : Thread nD τ).loc main_arg0) :=
  (θ_run defs _ _).mono (fun r h c =>
      ⟨((h c).2 main_v0 (Pipeline.mem_restRefs_of main_v0 (by decide) (by decide))).trans
          ((tail_eq m c).trans (by unfold seriesFlat; rw [V_in])),
        ((h c).2 main_arg0 (Pipeline.mem_restRefs_of main_arg0 (by decide) (by decide))).trans (W_main_arg0 m (dats m) c)⟩)
    (run_main m ρ)

end Cert.KernelIdeal.Hand

end
-- ==== Proof.RefVal.lean ====
/-
  What the reference computes, matrix by matrix.

  The reference reshapes its argument into a stack of 8192 matrices and carries out the same steps on the whole stack:
  six batched products (batch axis 0, the left operand's last axis contracted with the right operand's middle axis),
  each followed by an entrywise quotient by a broadcast constant and an entrywise sum, and one last quotient. The b-th
  slice of a batched product is the matrix product of the operands' b-th slices, and the entrywise steps act on slices
  separately, so the b-th slice of the last quotient is the series of the b-th slice of the reshaped argument.
-/
import proofs.«124483_j52810917872258_2_alg».proof.Proof.Gen.ReferenceIdeal.Read
import proofs.«124483_j52810917872258_2_alg».proof.Proof.Series
import Idealize.ShloMosaic.Lib.ValueIdx
import Idealize.ShloMosaic.PureOps.Ideal.Laws
import Idealize.ShloMosaic.Lib.KernelVsHost

noncomputable section

namespace Cert.ReferenceIdeal.Hand

open Cert.ReferenceIdeal Cert.ReferenceIdeal.Gen Cert.ReferenceIdeal.Read Cert.MatSeries Idealize.ShloMosaic Idealize.ShloMosaic.ValueIdx

/-- The host's batched product, slice by slice: the b-th slice is the matrix product of the operands' b-th slices (the
    contraction's sum re-indexed by its one coordinate; the operand indices are the generated module's coordinate
    lemmas for these dimension numbers). -/
theorem sl_dotGeneral (prec : Option ContractPrecision) (Y Z : FVec Ideal S8192x64x64 .f32) (b : Fin 8192) :
    sl (Host.dotGeneral dot_S8192x64x64_S8192x64x64_S8192x64x64_2_1_1_2_0_0 prec Y Z) b = mm (sl Y b) (sl Z b) := by
  funext i j
  show Host.dotGeneral dot_S8192x64x64_S8192x64x64_S8192x64x64_2_1_1_2_0_0 prec Y Z (ix3 b i j) = ∑ k : Fin 64, Y (ix3 b i k) * Z (ix3 b k j)
  simp only [Host.dotGeneral]
  rw [Ideal.dotGeneral_apply, ← Equiv.sum_comp (contrEquiv1 dot_S8192x64x64_S8192x64x64_S8192x64x64_2_1_1_2_0_0 64 rfl rfl).symm]
  refine Finset.sum_congr rfl fun k _ => ?_
  have hk := contrEquiv1_symm_val dot_S8192x64x64_S8192x64x64_S8192x64x64_2_1_1_2_0_0 64 rfl rfl k
  have el : dot_S8192x64x64_S8192x64x64_S8192x64x64_2_1_1_2_0_0.lhsIdx (ix3 b i j) ((contrEquiv1 dot_S8192x64x64_S8192x64x64_S8192x64x64_2_1_1_2_0_0 64 rfl rfl).symm k) = ix3 b i k := funext fun a => Fin.ext (by
    match a with
    | ⟨0, _⟩ => exact lhs_main_v1_0 _ _
    | ⟨1, _⟩ => exact lhs_main_v1_1 _ _
    | ⟨2, _⟩ => exact (lhs_main_v1_2 _ _).trans hk)
  have er : dot_S8192x64x64_S8192x64x64_S8192x64x64_2_1_1_2_0_0.rhsIdx (ix3 b i j) ((contrEquiv1 dot_S8192x64x64_S8192x64x64_S8192x64x64_2_1_1_2_0_0 64 rfl rfl).symm k) = ix3 b k j := funext fun a => Fin.ext (by
    match a with
    | ⟨0, _⟩ => exact rhs_main_v1_0 _ _
    | ⟨1, _⟩ => exact (rhs_main_v1_1 _ _).trans hk
    | ⟨2, _⟩ => exact rhs_main_v1_2 _ _)
  rw [el, er]

/-- The last quotient's stack, slice by slice: the series of the reshaped argument's slice. -/
theorem ref_slice (x0 : (⟨S8192x4096, .f32⟩ : BufTy).Contents (Elt Ideal)) (b : Fin 8192) :
    sl (val_main_v26 (F := Ideal) x0) b = series (sl (val_main_v0 (F := Ideal) x0) b) := by
  unfold val_main_v26 val_main_v25 val_main_cst_5 val_main_v24 val_main_v23 val_main_v22 val_main_cst_4 val_main_v21
    val_main_v20 val_main_v19 val_main_v18 val_main_cst_3 val_main_v17 val_main_v16 val_main_v15 val_main_v14 val_main_cst_2
    val_main_v13 val_main_v12 val_main_v11 val_main_v10 val_main_cst_1 val_main_v9 val_main_v8 val_main_v7 val_main_v6
    val_main_cst_0 val_main_v5 val_main_v4 val_main_v3 val_main_v2 val_main_cst val_main_v1
  simp only [broadcastInDim_constant]
  simp only [sl_hostDivf_splat, sl_addf, sl_dotGeneral]
  rfl

/-- So that stack is the stack function of the reshaped argument. -/
theorem ref_stack (x0 : (⟨S8192x4096, .f32⟩ : BufTy).Contents (Elt Ideal)) :
    val_main_v26 (F := Ideal) x0 = seriesStack (val_main_v0 (F := Ideal) x0) :=
  ext_sl _ _ fun b => (ref_slice x0 b).trans (sl_seriesStack _ b).symm

/-- The reference's result: the last stack reshaped back, so the flat form of the series of the argument. -/
theorem ref_result (x0 : (⟨S8192x4096, .f32⟩ : BufTy).Contents (Elt Ideal)) :
    val_main_v27 (F := Ideal) x0 = seriesFlat shapeCasts_S8192x4096_S8192x64x64 shapeCasts_S8192x64x64_S8192x4096 x0 := by
  unfold val_main_v27 seriesFlat
  rw [ref_stack]
  rfl

end Cert.ReferenceIdeal.Hand

end
-- ==== Proof.lean ====
/-
  The kernel and its reference compute one function.

  The argument is an array of 8192 rows of 4096 numbers, each row a 64 × 64 matrix X in row-major order. Both programs
  reshape it into a stack of matrices, compute for every matrix the rescaled power series
      (X + P₂ + P₃ + P₄ + P₅ + P₆ + P₇) / d₇,   P₁ = X,   P₍ₙ₊₁₎ = (Pₙ · X) / dₙ,
  with the same seven divisors (the same binary words in both programs), the sums and quotients taken in the same
  order, and reshape the result back. The kernel does this 128 matrices at a time on a grid of 64 points, its products
  accumulated into a zero splat; the reference does it on the whole stack with the host's batched product. On the
  extended reals a product into the zero accumulator is the plain sum of products, the two quotients are one operation,
  and a matrix of the result depends only on the matrix of the argument with the same number, so both results are the
  series of every matrix (Proof/Series.lean). No law of arithmetic joins the two sides, only the re-indexing of the
  contraction's sum, so nothing is asked of the inputs: the precondition is not used.

  The kernel's side is Proof/KernelPay.lean (one stored block, matrix by matrix) and Proof/KernelValue.lean (the blocks
  tile the result; the reshapes around the call); the reference's side is Proof/RefVal.lean, over the generated run of
  the reference and its stage-by-stage reading. The kernel's and its idealization's frames are the generated ones; the
  reference's frame is its generated run with the result dropped; the ideal pass rewrote nothing, so the idealization
  is the kernel's own text and that conjunct is trivial.
-/
import proofs.«124483_j52810917872258_2_alg».proof.Defs
import proofs.«124483_j52810917872258_2_alg».proof.Proof.Gen.Kernel
import proofs.«124483_j52810917872258_2_alg».proof.Proof.Gen.Kernel.Skeleton
import proofs.«124483_j52810917872258_2_alg».proof.Proof.Gen.Kernel.Launch
import proofs.«124483_j52810917872258_2_alg».proof.Proof.Gen.Kernel.Points
import proofs.«124483_j52810917872258_2_alg».proof.Proof.Gen.Kernel.Frame
import proofs.«124483_j52810917872258_2_alg».proof.Proof.Gen.KernelIdeal
import proofs.«124483_j52810917872258_2_alg».proof.Proof.Gen.KernelIdeal.Skeleton
import proofs.«124483_j52810917872258_2_alg».proof.Proof.Gen.KernelIdeal.Launch
import proofs.«124483_j52810917872258_2_alg».proof.Proof.Gen.KernelIdeal.Points
import proofs.«124483_j52810917872258_2_alg».proof.Proof.Gen.KernelIdeal.Frame
import proofs.«124483_j52810917872258_2_alg».proof.Proof.Gen.ReferenceIdeal
import proofs.«124483_j52810917872258_2_alg».proof.Proof.Gen.ReferenceIdeal.Run
import proofs.«124483_j52810917872258_2_alg».proof.Proof.Gen.ReferenceIdeal.Read
import proofs.«124483_j52810917872258_2_alg».proof.Proof.Gen.Pre_finite_inputs
import proofs.«124483_j52810917872258_2_alg».proof.Proof.Series
import proofs.«124483_j52810917872258_2_alg».proof.Proof.KernelPay
import proofs.«124483_j52810917872258_2_alg».proof.Proof.KernelValue
import proofs.«124483_j52810917872258_2_alg».proof.Proof.RefVal
import Idealize.ShloMosaic.Adequacy
import Idealize.ShloMosaic.Init

noncomputable section

namespace Cert.Proof

open Idealize.ShloMosaic Idealize.SL.Sem

/-- The kernel as printed runs and leaves its argument alone: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its argument alone: its generated run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the argument both programs end with the flat form of the series of the argument. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, hagree c]
  exact Cert.ReferenceIdeal.Hand.ref_result _

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
